-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S784x512 : Shape := ⟨2, ![784, 512]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S784x512 : S_.BroadcastsInDim S784x512 (![] : Fin 0 → Fin S784x512.rank)
  reducesTo_S784x512_S_d0_1 : S784x512.ReducesTo [0, 1] S_

variable [Facts]

def fn {F : FTy → Type} [FloatOps F] (main_arg0 : FVec F S512x784 .f32) (main_arg1 : FVec F S784x512 .f32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S784x512 .f32 := Host.absf main_arg1
  let main_cst_0 : FVec F S_ .f32 := constant S_ .f32 0x7F800000#32
  let main_v5 : FVec F S784x512 .f32 := broadcastInDim S784x512 ![] bcast_S_S784x512 main_cst_0
  let main_v6 : IVec S784x512 1 := cmpf .olt main_v4 main_v5
  let main_c_1 : IVec S_ 1 := constantI S_ 1 1#1
  let main_v7 : IVec S_ 1 := (fun x v => Host.reduce IntOp.andi x v reducesTo_S784x512_S_d0_1 h_S_) main_v6 main_c_1
  let main_v8 : IVec S_ 1 := andi main_v3 main_v7
  main_v8
-- ==== Kernel.lean ====
abbrev S512x784 : Shape := ⟨2, ![512, 784]⟩
abbrev S784x512 : Shape := ⟨2, ![784, 512]⟩
abbrev S_ : Shape := ⟨0, ![]⟩
abbrev S512 : Shape := ⟨1, ![512]⟩
abbrev S1x512 : Shape := ⟨2, ![1, 512]⟩
abbrev S512x512 : Shape := ⟨2, ![512, 512]⟩
abbrev S256x784 : Shape := ⟨2, ![256, 784]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S512x784, .f32⟩
  | .hbm, ⟨1, _⟩ => ⟨S784x512, .f32⟩
  | .hbm, ⟨2, _⟩ => ⟨S784x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S784x512, .bf16⟩
  | .hbm, ⟨7, _⟩ => ⟨S512x512, .f32⟩
  | .local _ .vmem, ⟨0, _⟩ => ⟨S256x784, .f32⟩
  | .local _ .vmem, ⟨1, _⟩ => ⟨S256x784, .f32⟩
  | .local _ .vmem, ⟨2, _⟩ => ⟨S784x512, .bf16⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S784x512_S512_d0 : S784x512.ReducesTo [0] S512
  h_S_ : 0 < S_.numel
  bcast_S512_S1x512_1 : S512.BroadcastsInDim S1x512 (![1] : Fin 1 → Fin S1x512.rank)
  bitsLt_bf16_f32 : FTy.bits .bf16 < FTy.bits .f32
  inb_S256x784_S256x784_0_0 : ∀ a, (![0, 0] : Fin 2 → Nat) a + S256x784.size a ≤ S256x784.size a
  h_S256x784 : 0 < S256x784.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x784_S256 : S256x784.Reduces [1] S256
  shapeCasts_S256_S256x1 : S256.ShapeCasts S256x1
  broadcasts_S256x1_S256x512 : S256x1.Broadcasts S256x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x784_S784x512_S256x512_1_0_0_1_n_n_wf : DotDims.WF S256x784 S784x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S512x784.size a
  hwx0_0 : ∀ i : grid0.Coords, EltTy.bits .f32 = 32 ∨ (Rect.block (s := S512x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .bf16 = 32 ∨ (Rect.block (s := S784x512) S784x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S512x512.size a
  hwx0_3 : ∀ i : grid0.Coords, EltTy.bits .f32 = 32 ∨ (Rect.block (s := S512x512) S256x512.size (cc0_transform_3 i) (hinb0_3 i)).WholeWords (EltTy.packing .f32)

variable [Facts₀]

def dot_S256x784_S784x512_S256x512_1_0_0_1_n_n : DotDims S256x784 S784x512 S256x512 where
  lhsContracting := [1]
  rhsContracting := [0]
  lhsNonContracting := [0]
  rhsNonContracting := [1]
  lhsBatch := []
  rhsBatch := []
  wf := dot_S256x784_S784x512_S256x512_1_0_0_1_n_n_wf

abbrev win0_0 : Pipeline.Window sig grid0 :=
  Pipeline.Window.ofSpec (Memref.whole main_arg0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x784 : Shape := ⟨2, ![512, 784]⟩
abbrev S784x512 : Shape := ⟨2, ![784, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 18
  | .vmem => 0
  | .smem => 0
  | _ => 0

abbrev bufTy : (tb : Table) → Fin (tcTables nBuf tb) → BufTy
  | .hbm, ⟨0, _⟩ => ⟨S512x784, .f32⟩
  | .hbm, ⟨1, _⟩ => ⟨S784x512, .f32⟩
  | .hbm, ⟨2, _⟩ => ⟨S512x784, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S784x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x784_S512_d1 : S512x784.ReducesTo [1] S512
  h_S_ : 0 < S_.numel
  bcast_S512_S512x1_0 : S512.BroadcastsInDim S512x1 (![0] : Fin 1 → Fin S512x1.rank)
  reducesTo_S784x512_S512_d0 : S784x512.ReducesTo [0] S512
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  dot_S512x784_S784x512_S512x512_1_0_0_1_n_n_wf : DotDims.WF S512x784 S784x512 S512x512 [1] [0] [0] [1] [] []

variable [Facts₀]

def dot_S512x784_S784x512_S512x512_1_0_0_1_n_n : DotDims S512x784 S784x512 S512x512 where
  lhsContracting := [1]
  rhsContracting := [0]
  lhsNonContracting := [0]
  rhsNonContracting := [1]
  lhsBatch := []
  rhsBatch := []
  wf := dot_S512x784_S784x512_S512x512_1_0_0_1_n_n_wf

class Facts : Prop extends Facts₀ where

variable [Facts]
-- ==== Proof.SqDist.lean ====
/-
  The squared Euclidean distance between every row of a [512, 784] array `x` and every column of a [784, 512] array
  `c`, in the expanded form both programs compute at the exact instance:
      D(p, q) = (Σ_k x[p,k]²) + (Σ_k c[k,q]²) − 2 · Σ_k x[p,k] · c[k,q]
  over the extended reals. No program is mentioned here: only the index-by-index function.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-- The sum of the squares of row `p` of `x`. -/
def rowSq (x : (⟨2, ![512, 784]⟩ : Shape).Idx → EReal) (p : Fin 512) : EReal :=
  ∑ k : Fin 784, x (ix2 p k) * x (ix2 p k)

/-- The sum of the squares of column `q` of `c`. -/
def colSq (c : (⟨2, ![784, 512]⟩ : Shape).Idx → EReal) (q : Fin 512) : EReal :=
  ∑ k : Fin 784, c (ix2 k q) * c (ix2 k q)

/-- The inner product of row `p` of `x` with column `q` of `c`. -/
def cross (x : (⟨2, ![512, 784]⟩ : Shape).Idx → EReal) (c : (⟨2, ![784, 512]⟩ : Shape).Idx → EReal)
    (p q : Fin 512) : EReal :=
  ∑ k : Fin 784, x (ix2 p k) * c (ix2 k q)

/-- The factor of the cross term: the single-precision word of 2.0, read at the exact instance. Both programs carry
    this same word, so its value is never opened. -/
def two : EReal := Ideal.ofBits .f32 0x40000000#32

/-- The distance table: entry (p, q) is ‖x_p‖² + ‖c_q‖² − 2 ⟨x_p, c_q⟩. -/
def dist (x : (⟨2, ![512, 784]⟩ : Shape).Idx → EReal) (c : (⟨2, ![784, 512]⟩ : Shape).Idx → EReal) :
    (⟨2, ![512, 512]⟩ : Shape).Idx → EReal :=
  fun i => rowSq x (i 0) + colSq c (i 1) - two * cross x c (i 0) (i 1)

theorem dist_ix2 (x : (⟨2, ![512, 784]⟩ : Shape).Idx → EReal) (c : (⟨2, ![784, 512]⟩ : Shape).Idx → EReal)
    (p q : Fin 512) : dist x c (ix2 p q) = rowSq x p + colSq c q - two * cross x c p q := rfl

end Cert.SqDist

end
-- ==== Proof.RefDist.lean ====
/-
  The reference program's result, stage by stage, is the distance table: its row sums of squares, column sums of
  squares and matrix product are, index by index, the three sums of `Cert.SqDist.dist`; each host sum starts from
  the zero word, which adds nothing.
-/
import proofs.«164252_j68341519614506_2_alg».proof.Proof.Gen.ReferenceIdeal.Read
import proofs.«164252_j68341519614506_2_alg».proof.Proof.SqDist

noncomputable section

namespace Cert.ReferenceIdeal.RefDist

open Cert.ReferenceIdeal Cert.ReferenceIdeal.Read Idealize.ShloMosaic Idealize.ShloMosaic.ValueIdx Cert.SqDist

/-- The reference's last stage, read at the exact instance, is the distance table of its two arguments. -/
theorem ref_eq_dist (x0 : (⟨S512x784, .f32⟩ : BufTy).Contents (Elt Ideal)) (x1 : (⟨S784x512, .f32⟩ : BufTy).Contents (Elt Ideal)) :
    val_main_v12 (F := Ideal) x0 x1 = dist x0 x1 := by
  funext i
  obtain ⟨p, q, rfl⟩ : ∃ (p q : Fin 512), i = ix2 p q := ⟨i 0, i 1, eq_ix2 i⟩
  -- the row of x, the column of c and the two operands of the product, as the stages' composed index maps give them
  have e1 : ∀ k : Fin 784, idx_main_v1 (idx_main_v2 (idx_main_v7 (ix2 p q))) k = ix2 p k := fun k =>
    funext fun a => Fin.ext (by match a with | ⟨0, _⟩ => rfl | ⟨1, _⟩ => rfl)
  have e2 : ∀ k : Fin 784, idx_main_v4 (idx_main_v5 (idx_main_v8 (ix2 p q))) k = ix2 k q := fun k =>
    funext fun a => Fin.ext (by match a with | ⟨0, _⟩ => rfl | ⟨1, _⟩ => rfl)
  have e3 : ∀ k : Fin 784, lidx_main_v6 (ix2 p q) k = ix2 p k := fun k =>
    funext fun a => Fin.ext (by match a with | ⟨0, _⟩ => rfl | ⟨1, _⟩ => rfl)
  have e4 : ∀ k : Fin 784, ridx_main_v6 (ix2 p q) k = ix2 k q := fun k =>
    funext fun a => Fin.ext (by match a with | ⟨0, _⟩ => rfl | ⟨1, _⟩ => rfl)
  rw [val_main_v12_apply, val_main_v9_apply, val_main_v7_apply, val_main_v2_apply, val_main_v1_apply,
    val_main_v8_apply, val_main_v5_apply, val_main_v4_apply, val_main_v11_apply, val_main_v10_apply,
    val_main_v6_apply]
  simp only [val_main_v0_apply, val_main_v3_apply, val_main_cst_apply, val_main_cst_0_apply, val_main_cst_1_apply,
    e1, e2, e3, e4, Ideal.ofBits_def, Ideal.addf_def, Ideal.subf_def, Ideal.mulf_def, Ideal.ofBits_zero_f32, zero_add]
  rfl

end Cert.ReferenceIdeal.RefDist

end
-- ==== Proof.Payload.lean ====
/-
  The kernel body's stored value at one entry of a block. From a block `v0` of 256 rows of x, the whole rounded copy
  `v1` of c and the row `v3` of column sums of squares, the body stores, at row `p` and column `q` of the block,
      (Σ_k v0[p,k]²) + v3[0,q] − 2 · Σ_k v0[p,k] · v1[k,q] :
  the lane sum of the squared block kept as a column and spread over the columns, the row of column sums spread over
  the rows, and the matrix product into a zero accumulator (a change of float format is the identity here).
-/
import proofs.«164252_j68341519614506_2_alg».proof.Proof.Gen.KernelIdeal.Skeleton
import proofs.«164252_j68341519614506_2_alg».proof.Proof.SqDist
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.SqDist

/-- A vector of 256 entries kept as a [256, 1] column and spread over 512 columns reads, at (p, q), entry p. -/
theorem column_spread (v : FVec Ideal S256 .f32) (h1 : S256.ShapeCasts S256x1) (h2 : S256x1.Broadcasts S256x512)
    (p : Fin 256) (q : Fin 512) :
    broadcastTo S256x512 (shapeCast S256x1 v h1) h2 (ix2 p q) = v (ix1 p) := by
  refine (broadcastTo_apply _ h2 (ix2 p q) (ix2 p (0 : Fin 1)) fun a => ?_).trans
    (shapeCast_apply v h1 (ix2 p (0 : Fin 1)) (ix1 p) ?_)
  · match a with
    | ⟨0, _⟩ => show p.val = if (256 : Nat) = 1 then 0 else p.val; rw [if_neg (by decide)]
    | ⟨1, _⟩ => show 0 = if (1 : Nat) = 1 then 0 else q.val; rw [if_pos rfl]
  · rw [Shape.rowMajor_val_two, Shape.rowMajor_val_one]
    show p.val = p.val * 1 + 0
    omega

/-- A [1, 512] row, cast to its own shape and spread over 256 rows, reads, at (p, q), the row's entry q. -/
theorem row_spread (v : Vec Ideal S1x512 .f32) (h1 : S1x512.ShapeCasts S1x512) (h2 : S1x512.Broadcasts S256x512)
    (p : Fin 256) (q : Fin 512) :
    broadcastTo S256x512 (shapeCast S1x512 v h1) h2 (ix2 p q) = v (ix2 (0 : Fin 1) q) := by
  rw [shapeCast_self]
  exact broadcastTo_1b_ab_apply v h2 p q

/-- The sum along the lanes of a [256, 784] block, from the zero word, at row p: the sum of that row. -/
theorem lane_sum (src : FVec Ideal S256x784 .f32) (h : S256x784.Reduces [1] S256) (hφ : FKind.Formats .f32)
    (hacc : (0x00000000#32 : BitVec (FTy.bits .f32)) = FKind.add.neutral .f32 hφ) (p : Fin 256) :
    multiReduction .add [1] S256 src 0x00000000#32 h hφ hacc (ix1 p) = ∑ k : Fin 784, src (ix2 p k) := by
  refine (Ideal.multiReduction_add_single src 0x00000000#32 h hφ hacc (ix1 p)).trans ?_
  show ∑ k : Fin 784, src (h.lift (ix1 p) k) = _
  refine Finset.sum_congr rfl fun k _ => congrArg src (funext fun a => Fin.ext ?_)
  match a with
  | ⟨0, _⟩ => rfl
  | ⟨1, _⟩ => rfl

/-- The left operand's index at output index `i` keeps the row of `i`, -/
theorem lhs_row (i : S256x512.Idx) (r : dot_S256x784_S784x512_S256x512_1_0_0_1_n_n.contr.Idx) :
    (dot_S256x784_S784x512_S256x512_1_0_0_1_n_n.lhsIdx i r 0).val = (i 0).val := by
  unfold DotDims.lhsIdx
  rw [dif_neg (show ¬(0 : Fin S256x784.rank) ∈ dot_S256x784_S784x512_S256x512_1_0_0_1_n_n.lhsBatch by decide),
    dif_pos (show (0 : Fin S256x784.rank) ∈ dot_S256x784_S784x512_S256x512_1_0_0_1_n_n.lhsNonContracting by decide)]
  rfl
/-- and the right operand's keeps its column. -/
theorem rhs_col (i : S256x512.Idx) (r : dot_S256x784_S784x512_S256x512_1_0_0_1_n_n.contr.Idx) :
    (dot_S256x784_S784x512_S256x512_1_0_0_1_n_n.rhsIdx i r 1).val = (i 1).val := by
  unfold DotDims.rhsIdx
  rw [dif_neg (show ¬(1 : Fin S784x512.rank) ∈ dot_S256x784_S784x512_S256x512_1_0_0_1_n_n.rhsBatch by decide),
    dif_pos (show (1 : Fin S784x512.rank) ∈ dot_S256x784_S784x512_S256x512_1_0_0_1_n_n.rhsNonContracting by decide)]
  rfl

/-- The product of a [256, 784] block with a [784, 512] matrix into a zero accumulator, the left operand passed
    through a change of format and the right through a cast to its own shape, at (p, q): the inner product of row p
    with column q. -/
theorem product (v0 : FVec Ideal S256x784 .f32) (v1 : FVec Ideal S784x512 .bf16) (hb : FTy.bits .bf16 < FTy.bits .f32)
    (hc : S784x512.ShapeCasts S784x512) (p : Fin 256) (q : Fin 512) :
    matmul (F := Ideal) dot_S256x784_S784x512_S256x512_1_0_0_1_n_n none (truncf .bf16 v0 hb) (shapeCast S784x512 v1 hc)
      (constant S256x512 .f32 0x00000000#32) (ix2 p q) = ∑ k : Fin 784, v0 (ix2 p k) * v1 (ix2 k q) := by
  rw [shapeCast_self]
  refine (Ideal.matmul_constant_zero_apply dot_S256x784_S784x512_S256x512_1_0_0_1_n_n none (truncf .bf16 v0 hb) v1 (ix2 p q)).trans ?_
  rw [← Equiv.sum_comp (contrEquiv1 dot_S256x784_S784x512_S256x512_1_0_0_1_n_n 784 rfl rfl).symm]
  refine Finset.sum_congr rfl fun k _ => ?_
  have hk := contrEquiv1_symm_val dot_S256x784_S784x512_S256x512_1_0_0_1_n_n 784 rfl rfl k
  have el : dot_S256x784_S784x512_S256x512_1_0_0_1_n_n.lhsIdx (ix2 p q) ((contrEquiv1 dot_S256x784_S784x512_S256x512_1_0_0_1_n_n 784 rfl rfl).symm k) = ix2 p k :=
    funext fun a => Fin.ext (by
      match a with
      | ⟨0, _⟩ => exact lhs_row _ _
      | ⟨1, _⟩ => exact (dot_S256x784_S784x512_S256x512_1_0_0_1_n_n.lhsIdx_val_of_single rfl (ix2 p q) _).trans hk)
  have er : dot_S256x784_S784x512_S256x512_1_0_0_1_n_n.rhsIdx (ix2 p q) ((contrEquiv1 dot_S256x784_S784x512_S256x512_1_0_0_1_n_n 784 rfl rfl).symm k) = ix2 k q :=
    funext fun a => Fin.ext (by
      match a with
      | ⟨0, _⟩ => exact (dot_S256x784_S784x512_S256x512_1_0_0_1_n_n.rhsIdx_val_of_single rfl (ix2 p q) _).trans hk
      | ⟨1, _⟩ => exact rhs_col _ _)
  rw [el, er]
  rfl

/-- THE STORED VALUE at (p, q) of a block. -/
theorem pay_apply (v0 : Vec Ideal S256x784 .f32) (v1 : Vec Ideal S784x512 .bf16) (v3 : Vec Ideal S1x512 .f32)
    (p : Fin 256) (q : Fin 512) :
    k0_pay1 (F := Ideal) v0 v1 v3 (ix2 p q)
      = (∑ k : Fin 784, v0 (ix2 p k) * v0 (ix2 p k)) + v3 (ix2 (0 : Fin 1) q) - two * ∑ k : Fin 784, v0 (ix2 p k) * v1 (ix2 k q) := by
  unfold k0_pay1
  rw [subf_apply, addf_apply, mulf_apply, broadcast_apply]
  refine congrArg₂ (· - ·) (congrArg₂ (· + ·) ?_ ?_) (congrArg₂ (· * ·) rfl ?_)
  · exact (column_spread _ _ _ p q).trans (lane_sum (mulf v0 v0) _ _ _ p)
  · exact row_spread v3 _ _ p q
  · exact product v0 v1 _ _ p q

end Cert.KernelIdeal.Payload

end
-- ==== Proof.HostPrefix.lean ====
/-
  What the region finds in the two arrays the host computes before it: the copy of c in the narrower float format,
  which at the exact instance IS c, and the [1, 512] row whose entry q is the sum of the squares of column q of c
  (a host sum from the zero word, which adds nothing).
-/
import proofs.«164252_j68341519614506_2_alg».proof.Proof.Gen.KernelIdeal.Frame
import proofs.«164252_j68341519614506_2_alg».proof.Proof.SqDist
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.SqDist

/-- The host's sum over the rows of the squared matrix, from the zero word, kept as a [1, 512] row: its entry q is
    the sum of the squares of column q. -/
theorem colsq_read (A : FVec Ideal S784x512 .f32) (hr : S784x512.ReducesTo [0] S512) (hs : 0 < S_.numel)
    (hb : S512.BroadcastsInDim S1x512 (![1] : Fin 1 → Fin S1x512.rank)) (q : Fin 512) :
    broadcastInDim S1x512 ![1] hb (Host.reduceAdd (F := Ideal) (mulf A A) (constant (F := Ideal) S_ .f32 0x00000000#32) hr hs)
      (ix2 (0 : Fin 1) q) = colSq A q := by
  refine (broadcastInDim_apply _ hb _ (ix2 (0 : Fin 1) q) (ix1 q) (fun a => match a with
    | ⟨0, _⟩ => by show q.val = if (512 : Nat) = 1 then 0 else q.val; rw [if_neg (by decide)])).trans ?_
  have h' : S784x512.Reduces [0] S512 := by decide
  have el : ∀ k : Fin 784, h'.lift (ix1 q) k = ix2 k q := fun k =>
    funext fun a => Fin.ext (by match a with | ⟨0, _⟩ => rfl | ⟨1, _⟩ => rfl)
  simp only [Host.reduceAdd, Ideal.hostReduceAdd_def]
  rw [Ideal.hostReduceAdd_single hr h']
  show Ideal.ofBits .f32 0x00000000#32 + ∑ k : Fin 784, (mulf A A) (h'.lift (ix1 q) k) = _
  rw [Ideal.ofBits_zero_f32, zero_add]
  exact Finset.sum_congr rfl fun k _ => by rw [el k]; rfl

variable (m : (ℓ : Loc nD τ sig) → Buf (Elt Ideal) ℓ)

/-- The region finds, as the narrower-format copy of c, c itself. -/
theorem V_copy (c : Dev nD) :
    (V m c main_v3 : S784x512.Idx → EReal) = (m ((c : Thread nD τ).loc main_arg1) : S784x512.Idx → EReal) := by
  dsimp only [Gen.V, Gen.hostOps0]
  after_results
  rfl

/-- The region finds, as the row of column sums, at entry q the sum of the squares of column q of c. -/
theorem V_colsq (c : Dev nD) (q : Fin 512) :
    (V m c main_v2 : S1x512.Idx → EReal) (ix2 (0 : Fin 1) q) = colSq (m ((c : Thread nD τ).loc main_arg1)) q := by
  have e : (V m c main_v2 : S1x512.Idx → EReal)
      = broadcastInDim S1x512 ![1] bcast_S512_S1x512_1 (Host.reduceAdd (F := Ideal)
          (mulf (m ((c : Thread nD τ).loc main_arg1)) (m ((c : Thread nD τ).loc main_arg1)))
          (constant (F := Ideal) S_ .f32 0x00000000#32) reducesTo_S784x512_S512_d0 h_S_) := by
    dsimp only [Gen.V, Gen.hostOps0]
    after_results
  rw [e]
  exact colsq_read _ _ _ _ q

end Cert.KernelIdeal.HostPrefix

end
-- ==== Proof.Blocks.lean ====
/-
  From blocks to the whole table. The grid has two points; point t takes rows 256·t … 256·t + 255 of x, all of the
  copy of c and all of the row of column sums, and writes back rows 256·t … 256·t + 255 of the result. What it writes
  is, entry by entry, the distance table `Cert.SqDist.dist` of the two argument arrays; the two row blocks fill the
  [512, 512] result, so after the run the result array IS that table.
-/
import proofs.«164252_j68341519614506_2_alg».proof.Proof.Gen.KernelIdeal.Value
import proofs.«164252_j68341519614506_2_alg».proof.Proof.Payload
import proofs.«164252_j68341519614506_2_alg».proof.Proof.HostPrefix
import proofs.«164252_j68341519614506_2_alg».proof.Proof.SqDist
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.SqDist Cert.KernelIdeal.Payload Cert.KernelIdeal.HostPrefix

variable (m : (ℓ : Loc nD τ sig) → Buf (Elt Ideal) ℓ) (ρ : Dev nD → PrngReg)

theorem zero_offsets : (![0, 0] : Fin 2 → Nat) = fun _ => 0 := funext fun a => by fin_cases a <;> rfl

/-- The four index maps over the two grid points: the x window and the result window are at row block t, column
    block 0; the two whole-array windows stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point t holds rows 256·t … of x. -/
theorem x_block (c : Dev nD) (t : Fin cfg0.N) (p : Fin 256) (k : Fin 784) (r : Fin 512) (hr : r.val = 256 * t.val + p.val) :
    (iblk m c 0 t : Vec Ideal S256x784 .f32) (ix2 p k)
      = (m ((c : Thread nD τ).loc main_arg0) : S512x784.Idx → EReal) (ix2 r k) := by
  obtain ⟨e0, e1, -⟩ := block_indices t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 784 + 1 * k.val = k.val; omega

/-- The block of the copy of c, at either point, is c. -/
theorem c_block (c : Dev nD) (t : Fin cfg0.N) (k : Fin 784) (q : Fin 512) :
    (iblk m c 1 t : Vec Ideal S784x512 .bf16) (ix2 k q)
      = (m ((c : Thread nD τ).loc main_arg1) : S784x512.Idx → EReal) (ix2 k q) := by
  obtain ⟨-, -, e2, e3, -⟩ := block_indices t
  unfold iblk
  rw [View.read_apply]
  show (V m c main_v3 : S784x512.Idx → EReal) (((cfg0.win 1).blk t).view.emb (ix2 k q)) = _
  rw [V_copy]
  refine congrArg _ (funext fun a => Fin.ext ?_)
  match a with
  | ⟨0, _⟩ => show win0_1.index t (0 : Fin 2) * 784 + 1 * k.val = k.val; omega
  | ⟨1, _⟩ => show win0_1.index t (1 : Fin 2) * 512 + 1 * q.val = q.val; omega

/-- The block of the row of column sums, at either point, holds at q the sum of the squares of column q of c. -/
theorem colsq_block (c : Dev nD) (t : Fin cfg0.N) (q : Fin 512) :
    (iblk m c 2 t : Vec Ideal S1x512 .f32) (ix2 (0 : Fin 1) q) = colSq (m ((c : Thread nD τ).loc main_arg1)) q := by
  obtain ⟨-, -, -, -, e4, e5, -⟩ := block_indices t
  unfold iblk
  rw [View.read_apply]
  show (V m c main_v2 : S1x512.Idx → EReal) (((cfg0.win 2).blk t).view.emb (ix2 (0 : Fin 1) q)) = _
  refine Eq.trans (congrArg _ (funext fun a => Fin.ext ?_)) (V_colsq m c q)
  match a with
  | ⟨0, _⟩ => show win0_2.index t (0 : Fin 2) * 1 + 1 * 0 = 0; omega
  | ⟨1, _⟩ => show win0_2.index t (1 : Fin 2) * 512 + 1 * q.val = q.val; omega

/-- The table the result array ends holding. -/
abbrev table (c : Dev nD) : Buf (Elt Ideal) ((c : Thread nD τ).loc main_v4) :=
  dist (m ((c : Thread nD τ).loc main_arg0)) (m ((c : Thread nD τ).loc main_arg1))

/-- The body's stored value at an entry of point t's block is the table's entry 256·t rows further down. -/
theorem stored_entry (c : Dev nD) (t : Fin cfg0.N) (j : S256x512.Idx) (i : S512x512.Idx)
    (h0 : (i 0).val = 256 * t.val + (j 0).val) (h1 : (i 1).val = (j 1).val) :
    k0_pay1 (F := Ideal) (iblk m c 0 t) (iblk m c 1 t) (iblk m c 2 t) j = table m c i := by
  obtain ⟨p, q, rfl⟩ : ∃ (p : Fin 256) (q : Fin 512), j = ix2 p q := ⟨j 0, j 1, eq_ix2 j⟩
  obtain ⟨r, s, rfl⟩ : ∃ (r s : Fin 512), i = ix2 r s := ⟨i 0, i 1, eq_ix2 i⟩
  have hr : r.val = 256 * t.val + p.val := h0
  obtain rfl : s = q := Fin.ext h1
  refine (pay_apply (iblk m c 0 t) (iblk m c 1 t) (iblk m c 2 t) p s).trans ?_
  show _ = rowSq _ r + colSq _ s - two * cross _ _ r s
  unfold rowSq cross
  refine congrArg₂ (· - ·) (congrArg₂ (· + ·) (Finset.sum_congr rfl fun k _ => ?_) (colsq_block m c t s))
    (congrArg₂ (· * ·) rfl (Finset.sum_congr rfl fun k _ => ?_))
  · rw [x_block m c t p k r hr]
  · rw [x_block m c t p k r hr, c_block m c t k s]

/-- WHAT POINT t WRITES BACK is block t of the table. -/
theorem flushed_eq (c : Dev nD) (t : Fin cfg0.N) :
    (dats m 0 c).flushed 3 t = ((cfg0.win 3).blk t).view.read (Elt Ideal) (table m c) := by
  obtain ⟨-, -, -, -, -, -, e6, e7⟩ := block_indices t
  rw [Value.flushed3]
  unfold out0_3
  rw [View.canon_unit_zero zero_offsets]
  simp only [View.ld_unit_zero (S := S256x784) zero_offsets, View.ld_unit_zero (S := S784x512) zero_offsets,
    View.ld_unit_zero (S := S1x512) zero_offsets]
  funext j
  rw [View.read_apply]
  refine stored_entry m c t j _ ?_ ?_
  · show win0_3.index t (0 : Fin 2) * 256 + 1 * (j 0).val = 256 * t.val + (j 0).val; omega
  · show win0_3.index t (1 : Fin 2) * 512 + 1 * (j 1).val = (j 1).val; omega

/-- An index of the result is in point t's block iff each coordinate is in the block's range. -/
theorem mem_block (t : Fin cfg0.N) (i : S512x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v4).slice (win0_3.rect t)).set ↔ _
  rw [View.set_slice_whole, Rect.mem_set_unit]
  exact Iff.rfl

/-- THE RESULT ARRAY after the run is the table: row r lies in the block of point r / 256. -/
theorem final (c : Dev nD) : (dats m 0 c).arrAt 3 cfg0.N = table m c :=
  (dats m 0 c).arrAt_eq_of_cover 3 (table m c) (fun t _ => flushed_eq m c t) fun i => by
    have hi0 : (i 0).val < 512 := (i 0).isLt
    have hi1 : (i 1).val < 512 := (i 1).isLt
    have hN : cfg0.N = 2 := N_0
    let t : Fin cfg0.N := ⟨(i 0).val / 256, by rw [hN]; omega⟩
    obtain ⟨-, -, -, -, -, -, e6, e7⟩ := block_indices t
    have ht : t.val = (i 0).val / 256 := rfl
    refine ⟨t, flush0_3 t, ?_⟩
    rw [mem_block]
    intro a
    match a with
    | ⟨0, _⟩ =>
      show win0_3.index t (0 : Fin 2) * 256 ≤ (i 0).val ∧ (i 0).val < win0_3.index t (0 : Fin 2) * 256 + 256
      omega
    | ⟨1, _⟩ =>
      show win0_3.index t (1 : Fin 2) * 512 ≤ (i 1).val ∧ (i 1).val < win0_3.index t (1 : Fin 2) * 512 + 512
      omega

/-- The kernel's run, read: the result array ends at the table of the argument arrays, which end unchanged. -/
theorem run : θ_run defs (onTc (τ := τ) (main (F := Ideal))) ⟨m, fun _ => 0, ρ⟩ fun r => ∀ c : Dev nD,
      r.2.mem ((c : Thread nD τ).loc main_v4) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  Squared Euclidean distances between the 512 rows of x [512, 784] and the 512 columns of c [784, 512]:
      D(p, q) = Σ_k x[p,k]² + Σ_k c[k,q]² − 2 · Σ_k x[p,k] · c[k,q].
  The kernel computes the column sums of squares and a narrower-format copy of c on the host, then, over two blocks
  of 256 rows, the row sums of squares, the matrix product into a zero accumulator, and the combination above; the
  reference computes the same three sums on whole arrays and combines them in the same order. Over the extended
  reals a change of float format is the identity and each sum is the plain finite sum (the host sums start from the
  zero word, which adds nothing), so both results are the one table `Cert.SqDist.dist` of the arguments, entry by
  entry: no law beyond 0 + a = a joins the two sides, and the inputs' finiteness is never used.
  Modules: SqDist (the table), RefDist (the reference is the table), Payload (the body's stored value at an entry),
  HostPrefix (the two host-computed arrays), Blocks (the two row blocks fill the result), and the claims below.
-/
import proofs.«164252_j68341519614506_2_alg».proof.Defs
import proofs.«164252_j68341519614506_2_alg».proof.Proof.Gen.Kernel
import proofs.«164252_j68341519614506_2_alg».proof.Proof.Gen.Kernel.Skeleton
import proofs.«164252_j68341519614506_2_alg».proof.Proof.Gen.Kernel.Launch
import proofs.«164252_j68341519614506_2_alg».proof.Proof.Gen.Kernel.Points
import proofs.«164252_j68341519614506_2_alg».proof.Proof.Gen.Kernel.Frame
import proofs.«164252_j68341519614506_2_alg».proof.Proof.Gen.KernelIdeal
import proofs.«164252_j68341519614506_2_alg».proof.Proof.Gen.KernelIdeal.Skeleton
import proofs.«164252_j68341519614506_2_alg».proof.Proof.Gen.KernelIdeal.Launch
import proofs.«164252_j68341519614506_2_alg».proof.Proof.Gen.KernelIdeal.Points
import proofs.«164252_j68341519614506_2_alg».proof.Proof.Gen.KernelIdeal.Frame
import proofs.«164252_j68341519614506_2_alg».proof.Proof.Gen.ReferenceIdeal
import proofs.«164252_j68341519614506_2_alg».proof.Proof.Gen.Pre_finite_inputs
import proofs.«164252_j68341519614506_2_alg».proof.Proof.Gen.KernelIdeal.Value
import proofs.«164252_j68341519614506_2_alg».proof.Proof.Gen.ReferenceIdeal.Run
import proofs.«164252_j68341519614506_2_alg».proof.Proof.Gen.ReferenceIdeal.Read
import proofs.«164252_j68341519614506_2_alg».proof.Proof.RefDist
import proofs.«164252_j68341519614506_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the exact reading. -/
theorem preserves : Cert.preserves_Kernel_KernelIdeal := trivial

/-- Both programs end with the distance table of the (agreeing) arguments in their result array. -/
theorem algebraic : Cert.algebraic_KernelIdeal_ReferenceIdeal := by
  intro m ρ m' ρ' _ hagree
  refine ⟨fun c => Cert.KernelIdeal.Blocks.table m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefDist.ref_eq_dist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
